-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S4096_S1x4096 : S4096.ShapeCasts S1x4096
  shapeCasts_S8192x4096_S4x2048x4096 : S8192x4096.ShapeCasts S4x2048x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S2048x1024_S2048x1024 : S2048x1024.ShapeCasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_call0_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.TiledSum.lean ====
/-
  The arithmetic of a linear layer whose contraction is summed block by block, on the extended reals.

  For a matrix `X` (8192 rows of 4096 entries), a matrix `W` (4096 rows of 4096 entries) and a bias `β`, entry
  `(n, o)` of `X · Wᵀ + β` is `(∑ k < 4096, X n k · W o k) + β o`. A schedule that cuts the 4096 columns into 8
  blocks of 512, starts the running value at `β o` and adds one block's partial product at a time ends at
  `β o + ∑ s < 8, ∑ q < 512, X n (512 s + q) · W o (512 s + q)`. The two are equal in any commutative additive
  monoid: a sum over `J · K` consecutive naturals is the sum over `J` blocks of the sums over the `K` naturals of a
  block (`sum_range_blocks`), and addition commutes. The extended reals are such a monoid, infinities included, so
  nothing is asked of the entries.

  Matrix entries are read by natural-number coordinates (`ent`, zero outside the extents), so that a block's
  entry `512 s + q` needs no proof of its bound where it is written.
-/
import Idealize.ShloMosaic.PureOps.Ideal
import Idealize.ShloMosaic.Lib.ValueIdx

noncomputable section

open scoped BigOperators

namespace Cert.TiledLinear

open Idealize.ShloMosaic Idealize.ShloMosaic.ValueIdx

/-! ## Entries by natural coordinates -/

/-- Entry `(r, c)` of a matrix given over a rank-2 index set; zero outside the extents. -/
def ent {R C : Nat} (A : (⟨2, ![R, C]⟩ : Shape).Idx → EReal) (r c : Nat) : EReal :=
  if h : r < R ∧ c < C then A (ix2 ⟨r, h.1⟩ ⟨c, h.2⟩) else 0

/-- Inside the extents it is the matrix at the index of those coordinates. -/
theorem ent_of_lt {R C : Nat} (A : (⟨2, ![R, C]⟩ : Shape).Idx → EReal) {r c : Nat} (hr : r < R) (hc : c < C) :
    ent A r c = A (ix2 ⟨r, hr⟩ ⟨c, hc⟩) := dif_pos ⟨hr, hc⟩

/-- A matrix at an index is its entry at the index's coordinates. -/
theorem ent_coords {R C : Nat} (A : (⟨2, ![R, C]⟩ : Shape).Idx → EReal) (i : (⟨2, ![R, C]⟩ : Shape).Idx) :
    ent A (i 0).val (i 1).val = A i := by
  rw [ent_of_lt A (idx2_lt0 i) (idx2_lt1 i)]
  exact congrArg A (eq_ix2 i).symm

/-- Entry `c` of a vector given over a rank-1 index set; zero outside the extent. -/
def ent1 {C : Nat} (b : (⟨1, ![C]⟩ : Shape).Idx → EReal) (c : Nat) : EReal :=
  if h : c < C then b (ix1 ⟨c, h⟩) else 0

theorem ent1_of_lt {C : Nat} (b : (⟨1, ![C]⟩ : Shape).Idx → EReal) {c : Nat} (hc : c < C) :
    ent1 b c = b (ix1 ⟨c, hc⟩) := dif_pos hc

/-! ## A sum over `J · K` consecutive naturals, block by block -/

/-- The sum over the first `J · K` naturals is the sum over `J` blocks of the sum over each block's `K` naturals. -/
theorem sum_range_blocks {M : Type*} [AddCommMonoid M] (f : Nat → M) (K : Nat) :
    ∀ J : Nat, ∑ k ∈ Finset.range (J * K), f k = ∑ s ∈ Finset.range J, ∑ q ∈ Finset.range K, f (K * s + q)
  | 0 => by simp
  | J + 1 => by
    rw [Nat.succ_mul, Finset.sum_range_add, Finset.sum_range_succ, sum_range_blocks f K J, Nat.mul_comm J K]

/-! ## The two arrangements -/

/-- Row `r` of `X` against row `o` of `W` over column block `s`: the 512 products of the block, summed. -/
def blockDot (X : (⟨2, ![8192, 4096]⟩ : Shape).Idx → EReal) (W : (⟨2, ![4096, 4096]⟩ : Shape).Idx → EReal)
    (r o s : Nat) : EReal :=
  ∑ q ∈ Finset.range 512, ent X r (512 * s + q) * ent W o (512 * s + q)

/-- THE BLOCKED ARRANGEMENT: the bias, then the eight column blocks' partial products added to it. -/
def tiled (X : (⟨2, ![8192, 4096]⟩ : Shape).Idx → EReal) (W : (⟨2, ![4096, 4096]⟩ : Shape).Idx → EReal)
    (β : Nat → EReal) : (⟨2, ![8192, 4096]⟩ : Shape).Idx → EReal :=
  fun i => β (i 1).val + ∑ s ∈ Finset.range 8, blockDot X W (i 0).val (i 1).val s

/-- THE WHOLE ARRANGEMENT: the product over all 4096 columns, then the bias. -/
def whole (X : (⟨2, ![8192, 4096]⟩ : Shape).Idx → EReal) (W : (⟨2, ![4096, 4096]⟩ : Shape).Idx → EReal)
    (β : Nat → EReal) : (⟨2, ![8192, 4096]⟩ : Shape).Idx → EReal :=
  fun i => (∑ k ∈ Finset.range 4096, ent X (i 0).val k * ent W (i 1).val k) + β (i 1).val

/-- They are one function: the 4096 columns are the 8 blocks of 512, and addition commutes. -/
theorem tiled_eq_whole (X : (⟨2, ![8192, 4096]⟩ : Shape).Idx → EReal) (W : (⟨2, ![4096, 4096]⟩ : Shape).Idx → EReal)
    (β : Nat → EReal) : tiled X W β = whole X W β := by
  funext i
  unfold tiled whole blockDot
  rw [add_comm]
  exact congrArg (· + β (i 1).val)
    (sum_range_blocks (fun k => ent X (i 0).val k * ent W (i 1).val k) 512 8).symm

end Cert.TiledLinear

end
-- ==== Proof.BlockReads.lean ====
/-
  Which entries of the arrays a grid point's blocks hold.

  The grid is 4 × 4 × 8, walked row-major: point `t` is row tile `t / 32`, column tile `t / 8 % 4`, contraction
  step `t % 8` (the printed index maps, decided over the 128 points: `block_indices`). At point `t`
    · the activations' block holds rows `2048 · (t / 32) + r`, columns `512 · (t % 8) + q` of the 8192 × 4096 array;
    · the weights' block holds rows `1024 · (t / 8 % 4) + s`, columns `512 · (t % 8) + q` of the 4096 × 4096 array;
    · the bias block holds columns `1024 · (t / 8 % 4) + s` of the 1 × 4096 row;
  a block's element sits, on each axis, at block index × block extent + its coordinate in the block. Entries are
  read by natural coordinates (`Cert.TiledLinear.ent`), the arrays as the region finds them.
-/
import proofs.«149169_j33483565039896_2_alg».proof.Proof.TiledSum
import proofs.«149169_j33483565039896_2_alg».proof.Proof.Gen.KernelIdeal.Frame.Runs
import Idealize.ShloMosaic.Lib.Pipeline.Value

noncomputable section

open Idealize.ShloMosaic Idealize.ShloMosaic.TcCoe Idealize.SL.Sem Idealize.ShloMosaic.ValueIdx

namespace Cert.KernelIdeal.BlockReads

open Cert.KernelIdeal Cert.KernelIdeal.Gen Cert.TiledLinear

variable (m : (ℓ : Loc nD τ sig) → Buf (Elt Ideal) ℓ)

/-- The grid has 128 points. -/
theorem point_lt (t : Fin cfg0.N) : t.val < 128 := lt_of_lt_of_eq t.isLt (show cfg0.N = 128 from N_0)

/-- The printed index maps over the grid: row tile `t / 32`, column tile `t / 8 % 4`, contraction step `t % 8`. -/
theorem block_indices : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The reshaped activations, the weights and the bias row as the region finds them. -/
abbrev acts (c : Dev nD) : S8192x4096.Idx → EReal := V m c main_call0_v0
abbrev weights (c : Dev nD) : S4096x4096.Idx → EReal := V m c main_arg1
abbrev biasRow (c : Dev nD) : S1x4096.Idx → EReal := V m c main_call0_v1

/-- The activations' block at point `t`, element `(r, q)`. -/
theorem acts_block_apply (c : Dev nD) (t : Fin cfg0.N) (r : Fin 2048) (q : Fin 512) :
    (iblk m c 0 t : Vec Ideal S2048x512 .f32) (ix2 r q)
      = ent (acts m c) (2048 * (t.val / 32) + r.val) (512 * (t.val % 8) + q.val) := by
  have hN := point_lt t
  obtain ⟨e0, e1, -⟩ := block_indices t
  rw [ent_of_lt _ (by omega) (by omega)]
  unfold iblk
  rw [View.read_apply]
  show V m c main_call0_v0 (((cfg0.win 0).blk t).view.emb (ix2 r q)) = V m c main_call0_v0 _
  refine congrArg (V m c main_call0_v0) (funext fun a => Fin.ext ?_)
  match a with
  | ⟨0, _⟩ => show win0_0.index t (0 : Fin 2) * 2048 + 1 * r.val = 2048 * (t.val / 32) + r.val; omega
  | ⟨1, _⟩ => show win0_0.index t (1 : Fin 2) * 512 + 1 * q.val = 512 * (t.val % 8) + q.val; omega

/-- The weights' block at point `t`, element `(s, q)`. -/
theorem weights_block_apply (c : Dev nD) (t : Fin cfg0.N) (s : Fin 1024) (q : Fin 512) :
    (iblk m c 1 t : Vec Ideal S1024x512 .f32) (ix2 s q)
      = ent (weights m c) (1024 * (t.val / 8 % 4) + s.val) (512 * (t.val % 8) + q.val) := by
  have hN := point_lt t
  obtain ⟨-, -, e0, e1, -⟩ := block_indices t
  rw [ent_of_lt _ (by omega) (by omega)]
  unfold iblk
  rw [View.read_apply]
  show V m c main_arg1 (((cfg0.win 1).blk t).view.emb (ix2 s q)) = V m c main_arg1 _
  refine congrArg (V m c main_arg1) (funext fun a => Fin.ext ?_)
  match a with
  | ⟨0, _⟩ => show win0_1.index t (0 : Fin 2) * 1024 + 1 * s.val = 1024 * (t.val / 8 % 4) + s.val; omega
  | ⟨1, _⟩ => show win0_1.index t (1 : Fin 2) * 512 + 1 * q.val = 512 * (t.val % 8) + q.val; omega

/-- The bias block at point `t`, element `(0, s)`. -/
theorem bias_block_apply (c : Dev nD) (t : Fin cfg0.N) (s : Fin 1024) :
    (iblk m c 2 t : Vec Ideal S1x1024 .f32) (ix2 (0 : Fin 1) s)
      = ent (biasRow m c) 0 (1024 * (t.val / 8 % 4) + s.val) := by
  have hN := point_lt t
  obtain ⟨-, -, -, -, e0, e1, -⟩ := block_indices t
  rw [ent_of_lt _ (by omega) (by omega)]
  unfold iblk
  rw [View.read_apply]
  show V m c main_call0_v1 (((cfg0.win 2).blk t).view.emb (ix2 (0 : Fin 1) s)) = V m c main_call0_v1 _
  refine congrArg (V m c main_call0_v1) (funext fun a => Fin.ext ?_)
  match a with
  | ⟨0, _⟩ => show win0_2.index t (0 : Fin 2) * 1 + 1 * 0 = 0; omega
  | ⟨1, _⟩ => show win0_2.index t (1 : Fin 2) * 1024 + 1 * s.val = 1024 * (t.val / 8 % 4) + s.val; omega

end Cert.KernelIdeal.BlockReads

end
-- ==== Proof.CaseValues.lean ====
/-
  What each control case of the kernel body leaves in the output block's staging buffer, as a value.

  The body runs in one of two ways. At the first step of a block's contraction (K coordinate 0) it stores the bias
  row broadcast down the 2048 rows, reads that back, and stores it plus the step's partial product; at every later
  step it reads what the step before left and stores that plus the step's partial product. In both the last store
  covers the whole 2048 × 1024 block, so the buffer ends holding that store's value: the accumulate payload
  `k0_pay2` of the two input blocks and of the running value — the broadcast bias `k0_pay1` in the first case, the
  previous contents in the second. For any float values.
-/
import proofs.«149169_j33483565039896_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- The zero offsets every load and store of the body uses. -/
theorem zero_offsets : (![0, 0] : Fin 2 → Nat) = fun _ => 0 := funext fun a => by fin_cases a <;> rfl

/-- A LATER STEP (K coordinate not 0): over a buffer holding `xo` the body leaves the accumulate payload of the two
    input blocks and `xo` — its one store covers the block, and its loads read the whole buffers. -/
theorem later_step (c : Dev nD) (i : grid0.Coords) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S2048x1024 .f32) (h6 : a6.IsWhole) (hc : ¬cond0_0 i)
    (x0 : Vec F S2048x512 .f32) (x1 : Vec F S1024x512 .f32) (x2 : Vec F S1x1024 .f32) (xo : Vec F S2048x1024 .f32) :
    out0_B_3 c i a3 h3 a4 h4 a5 h5 a6 h6 hc x0 x1 x2 xo = k0_pay2 x0 x1 xo := by
  unfold out0_B_3
  rw [View.read_writes_eq_canon _ _ _ (cover0_B_3 c i a3 h3 a4 h4 a5 h5 a6 h6 hc x0 x1 x2 xo)]
  unfold kernelRun0_B
  dsimp only
  rw [View.canon_unit_zero zero_offsets]
  simp only [View.readAt_eq_ld, h3.read_unread, h4.read_unread, h6.read_unread,
    View.ld_unit_zero (S := S2048x512) zero_offsets, View.ld_unit_zero (S := S1024x512) zero_offsets,
    View.ld_unit_zero (S := S2048x1024) zero_offsets]

/-- THE FIRST STEP (K coordinate 0): the body stores the broadcast bias, reads it back, and leaves the accumulate
    payload of the two input blocks and that broadcast bias. -/
theorem first_step (c : Dev nD) (i : grid0.Coords) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S2048x1024 .f32) (h6 : a6.IsWhole) (hc : cond0_0 i)
    (x0 : Vec F S2048x512 .f32) (x1 : Vec F S1024x512 .f32) (x2 : Vec F S1x1024 .f32) :
    out0_A_3 c i a3 h3 a4 h4 a5 h5 a6 h6 hc x0 x1 x2 = k0_pay2 x0 x1 (k0_pay1 x2) := by
  unfold out0_A_3
  rw [View.read_writes_eq_canon _ _ _ (cover0_A_3 c i a3 h3 a4 h4 a5 h5 a6 h6 hc x0 x1 x2)]
  unfold kernelRun0_A
  dsimp only
  sl_unfold_words
  rw [View.canon_cons_unit_zero (S := S2048x1024) zero_offsets, View.readCov_unit_zero (S := S2048x1024) _ zero_offsets]
  simp only [View.readAt_eq_ld, h3.read_unread, h4.read_unread, h5.read_unread,
    View.ld_unit_zero (S := S2048x512) zero_offsets, View.ld_unit_zero (S := S1024x512) zero_offsets,
    View.ld_unit_zero (S := S1x1024) zero_offsets]

end Cert.KernelIdeal.CaseValues

end
-- ==== Proof.PayloadAt.lean ====
/-
  The body's two stored values read at one element, on the extended reals.

  The broadcast bias at row `r`, column `s` of the 2048 × 1024 block is the bias row's entry `s`, whatever the row.
  The accumulate value at `(r, s)` is the running value there plus the step's partial product: the sum over the
  512 columns `q` of the step's blocks of `x (r, q) · w (s, q)` — row `r` of the activations' block against row
  `s` of the weights' block, both contracted along their second axis. The roundings to a narrower format on the
  way into the product are the identity on extended reals, and the product accumulates into a zero block.
-/
import proofs.«149169_j33483565039896_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.PayloadAt

open Cert.KernelIdeal Cert.KernelIdeal.Gen

/-- The broadcast bias at `(r, s)` is the bias row at `s`. -/
theorem bias_rows_apply (x2 : Vec Ideal S1x1024 .f32) (r : Fin 2048) (s : Fin 1024) :
    k0_pay1 (F := Ideal) x2 (ix2 r s) = x2 (ix2 (0 : Fin 1) s) := by
  unfold k0_pay1
  rw [shapeCast_self, shapeCast_self]
  exact broadcastTo_apply x2 broadcasts_S1x1024_S2048x1024 (ix2 r s) (ix2 (0 : Fin 1) s) (fun a => match a with
    | ⟨0, _⟩ => by show (0 : Nat) = if (1 : Nat) = 1 then 0 else _; rw [if_pos rfl]
    | ⟨1, _⟩ => by show s.val = if (1024 : Nat) = 1 then 0 else s.val; rw [if_neg (by decide)])

/-- The product's left operand index at output `(r, s)`, contraction position `k`: row `r` … -/
theorem lhs_row (j : S2048x1024.Idx) (k : dot_S2048x512_S1024x512_S2048x1024_1_1_0_0_n_n.contr.Idx) :
    (dot_S2048x512_S1024x512_S2048x1024_1_1_0_0_n_n.lhsIdx j k 0).val = (j 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl
/-- … and the right operand's: row `s`. -/
theorem rhs_row (j : S2048x1024.Idx) (k : dot_S2048x512_S1024x512_S2048x1024_1_1_0_0_n_n.contr.Idx) :
    (dot_S2048x512_S1024x512_S2048x1024_1_1_0_0_n_n.rhsIdx j k 0).val = (j 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl

/-- The accumulate value at `(r, s)`: the running value there plus `∑ q < 512, x0 (r, q) · x1 (s, q)`. -/
theorem accumulate_apply (x0 : Vec Ideal S2048x512 .f32) (x1 : Vec Ideal S1024x512 .f32) (acc : Vec Ideal S2048x1024 .f32)
    (r : Fin 2048) (s : Fin 1024) :
    k0_pay2 (F := Ideal) x0 x1 acc (ix2 r s) = acc (ix2 r s) + ∑ q : Fin 512, x0 (ix2 r q) * x1 (ix2 s q) := by
  unfold k0_pay2
  rw [shapeCast_self, shapeCast_self]
  refine (addf_apply _ _ (ix2 r s)).trans ?_
  refine congrArg (acc (ix2 r s) + ·) ?_
  refine (Ideal.matmul_constant_zero_apply dot_S2048x512_S1024x512_S2048x1024_1_1_0_0_n_n none _ _ (ix2 r s)).trans ?_
  rw [← Equiv.sum_comp (contrEquiv1 dot_S2048x512_S1024x512_S2048x1024_1_1_0_0_n_n 512 rfl rfl).symm]
  refine Finset.sum_congr rfl fun q _ => ?_
  have hq := contrEquiv1_symm_val dot_S2048x512_S1024x512_S2048x1024_1_1_0_0_n_n 512 rfl rfl q
  have el : dot_S2048x512_S1024x512_S2048x1024_1_1_0_0_n_n.lhsIdx (ix2 r s)
      ((contrEquiv1 dot_S2048x512_S1024x512_S2048x1024_1_1_0_0_n_n 512 rfl rfl).symm q) = ix2 r q :=
    funext fun a => Fin.ext (by
      match a with
      | ⟨0, _⟩ => exact lhs_row _ _
      | ⟨1, _⟩ => exact (dot_S2048x512_S1024x512_S2048x1024_1_1_0_0_n_n.lhsIdx_val_of_single rfl _ _).trans hq)
  have er : dot_S2048x512_S1024x512_S2048x1024_1_1_0_0_n_n.rhsIdx (ix2 r s)
      ((contrEquiv1 dot_S2048x512_S1024x512_S2048x1024_1_1_0_0_n_n 512 rfl rfl).symm q) = ix2 s q :=
    funext fun a => Fin.ext (by
      match a with
      | ⟨0, _⟩ => exact rhs_row _ _
      | ⟨1, _⟩ => exact (dot_S2048x512_S1024x512_S2048x1024_1_1_0_0_n_n.rhsIdx_val_of_single rfl _ _).trans hq)
  rw [el, er]
  rfl

end Cert.KernelIdeal.PayloadAt

end
-- ==== Proof.RunningSum.lean ====
/-
  What the output block's staging buffer holds as the contraction proceeds.

  The 128 grid points fall into 16 runs of 8 consecutive points, one run per output block; within a run the K
  coordinate goes 0, 1, … 7. At a run's first point the buffer is reset to the bias plus that point's partial
  product (`startAt`), and at each later point the point's partial product is added to what the point before left
  (`stepAt`). So at point `t` the buffer holds the fold of its run up to `t` (`buffer_is_fold`), and read at an
  element the fold is the bias entry plus the sum of the partial products of the run's points so far. At the run's
  last point (K coordinate 7), element `(r, s)` of the block of row tile `t / 32`, column tile `t / 8 % 4` holds
      bias (1024 · (t / 8 % 4) + s)  +  ∑ κ < 8, ∑ q < 512, X (2048 · (t / 32) + r, 512 κ + q) · W (1024 · (t / 8 % 4) + s, 512 κ + q)
  (`last_step_apply`): all eight column blocks of the contraction, in the order the grid visits them.
-/
import proofs.«149169_j33483565039896_2_alg».proof.Proof.BlockReads
import proofs.«149169_j33483565039896_2_alg».proof.Proof.CaseValues
import proofs.«149169_j33483565039896_2_alg».proof.Proof.PayloadAt
import proofs.«149169_j33483565039896_2_alg».proof.Proof.Gen.KernelIdeal.Frame
import Idealize.ShloMosaic.Lib.Pipeline.Value

noncomputable section

open scoped BigOperators
open Idealize.ShloMosaic Idealize.ShloMosaic.TcCoe Idealize.SL.Sem Idealize.ShloMosaic.ValueIdx

namespace Cert.KernelIdeal.RunningSum

open Cert.KernelIdeal Cert.KernelIdeal.Gen Cert.TiledLinear
open Cert.KernelIdeal.BlockReads Cert.KernelIdeal.CaseValues Cert.KernelIdeal.PayloadAt

variable (m : (ℓ : Loc nD τ sig) → Buf (Elt Ideal) ℓ)

/-! ## The buffer is its run's fold -/

/-- What a run's first point leaves: the accumulate value over the broadcast bias. -/
def startAt (c : Dev nD) (n : Nat) (h : n < cfg0.N) : Vec Ideal S2048x1024 .f32 :=
  k0_pay2 (iblk m c 0 ⟨n, h⟩) (iblk m c 1 ⟨n, h⟩) (k0_pay1 (iblk m c 2 ⟨n, h⟩))

/-- What a later point makes of what the point before left. -/
def stepAt (c : Dev nD) (n : Nat) (h : n < cfg0.N) (acc : Vec Ideal S2048x1024 .f32) : Vec Ideal S2048x1024 .f32 :=
  k0_pay2 (iblk m c 0 ⟨n, h⟩) (iblk m c 1 ⟨n, h⟩) acc

/-- At every point the buffer holds the fold of the point's run, from the run's first point `8 · (t / 8)` up to `t`:
    reset where the K coordinate is 0, stepped elsewhere. -/
theorem buffer_is_fold (c : Dev nD) (t : Fin cfg0.N) (h' : 8 * (t.val / 8) + t.val % 8 < cfg0.N) :
    outsAt0 m c t.val t.isLt = Pipeline.accAt (startAt m c) (stepAt m c) (8 * (t.val / 8)) (t.val % 8) h' :=
  Pipeline.eq_accAt_of_mod (fun n h => outsAt0 m c n h) 8 (startAt m c) (stepAt m c)
    (fun n h h0 => (outsAt0_A m c ⟨n, h⟩ h0).trans (first_step ..))
    (fun n h hne => by
      rw [outsAt0_B m c ⟨n + 1, h⟩ hne, later_step]
      rfl)
    (by decide) t.val t.isLt h'

/-! ## The fold at an element -/

/-- Point `n`'s partial product at element `(r, s)` of its block: row `2048 · (n / 32) + r` of the activations against
    row `1024 · (n / 8 % 4) + s` of the weights over column block `n % 8`. -/
def addend (c : Dev nD) (n r s : Nat) : EReal :=
  blockDot (acts m c) (weights m c) (2048 * (n / 32) + r) (1024 * (n / 8 % 4) + s) (n % 8)

/-- The step's sum over the 512 columns of point `n`'s two input blocks is that partial product. -/
theorem block_product (c : Dev nD) (n : Nat) (h : n < cfg0.N) (r : Fin 2048) (s : Fin 1024)
    (x0 : Vec Ideal S2048x512 .f32) (x1 : Vec Ideal S1024x512 .f32)
    (hx0 : x0 = iblk m c 0 ⟨n, h⟩) (hx1 : x1 = iblk m c 1 ⟨n, h⟩) :
    ∑ q : Fin 512, x0 (ix2 r q) * x1 (ix2 s q) = addend m c n r.val s.val := by
  subst hx0 hx1
  unfold addend blockDot
  rw [Finset.sum_range (fun q => ent (acts m c) (2048 * (n / 32) + r.val) (512 * (n % 8) + q)
    * ent (weights m c) (1024 * (n / 8 % 4) + s.val) (512 * (n % 8) + q))]
  refine Finset.sum_congr rfl fun q _ => ?_
  rw [acts_block_apply, weights_block_apply]

/-- A later point adds its partial product to what it found. -/
theorem stepAt_apply (c : Dev nD) (n : Nat) (h : n < cfg0.N) (acc : Vec Ideal S2048x1024 .f32) (i : S2048x1024.Idx) :
    stepAt m c n h acc i = acc i + addend m c n (i 0).val (i 1).val := by
  obtain ⟨r, s, rfl⟩ : ∃ (r : Fin 2048) (s : Fin 1024), i = ix2 r s := ⟨i 0, i 1, eq_ix2 i⟩
  unfold stepAt
  rw [accumulate_apply, block_product m c n h r s _ _ rfl rfl]

/-- A run's first point leaves the bias entry of the element's column plus its partial product. -/
theorem startAt_apply (c : Dev nD) (n : Nat) (h : n < cfg0.N) (i : S2048x1024.Idx) :
    startAt m c n h i = ent (biasRow m c) 0 (1024 * (n / 8 % 4) + (i 1).val) + addend m c n (i 0).val (i 1).val := by
  obtain ⟨r, s, rfl⟩ : ∃ (r : Fin 2048) (s : Fin 1024), i = ix2 r s := ⟨i 0, i 1, eq_ix2 i⟩
  unfold startAt
  rw [accumulate_apply, block_product m c n h r s _ _ rfl rfl, bias_rows_apply, bias_block_apply]

/-- AT A RUN'S LAST POINT (K coordinate 7) the block's element `y` holds the bias entry of its column plus the eight
    column blocks' partial products of its row against its column's weights row. -/
theorem last_step_apply (c : Dev nD) (t : Fin cfg0.N) (h7 : t.val % 8 = 7) (y : S2048x1024.Idx) :
    outsAt0 m c t.val t.isLt y
      = ent (biasRow m c) 0 (1024 * (t.val / 8 % 4) + (y 1).val)
        + ∑ κ ∈ Finset.range 8, blockDot (acts m c) (weights m c) (2048 * (t.val / 32) + (y 0).val)
            (1024 * (t.val / 8 % 4) + (y 1).val) κ := by
  have hN := point_lt t
  have hG : cfg0.N = 128 := N_0
  have h' : 8 * (t.val / 8) + t.val % 8 < cfg0.N := by omega
  rw [buffer_is_fold m c t h']
  have h'' : 8 * (t.val / 8) + 7 < cfg0.N := by omega
  have e : Pipeline.accAt (startAt m c) (stepAt m c) (8 * (t.val / 8)) (t.val % 8) h'
      = Pipeline.accAt (startAt m c) (stepAt m c) (8 * (t.val / 8)) 7 h'' := by
    congr 1
  rw [e, Pipeline.accAt_add_apply (startAt m c) (stepAt m c)
    (fun i => ent (biasRow m c) 0 (1024 * (8 * (t.val / 8) / 8 % 4) + (i 1).val))
    (fun n i => addend m c n (i 0).val (i 1).val) (8 * (t.val / 8)) 7
    (fun h i => startAt_apply m c _ h i) (fun n h acc i _ _ => stepAt_apply m c n h acc i) 7 le_rfl h'' y]
  have eb : 8 * (t.val / 8) / 8 % 4 = t.val / 8 % 4 := by omega
  rw [eb]
  refine congrArg (ent (biasRow m c) 0 (1024 * (t.val / 8 % 4) + (y 1).val) + ·) ?_
  refine Finset.sum_congr rfl fun κ hκ => ?_
  have hk : κ < 8 := Finset.mem_range.mp hκ
  unfold addend
  have e1 : (8 * (t.val / 8) + κ) / 32 = t.val / 32 := by omega
  have e2 : (8 * (t.val / 8) + κ) / 8 % 4 = t.val / 8 % 4 := by omega
  have e3 : (8 * (t.val / 8) + κ) % 8 = κ := by omega
  rw [e1, e2, e3]

end Cert.KernelIdeal.RunningSum

end
-- ==== Proof.OutputArray.lean ====
/-
  The output array after the region: one function of the arrays the region found.

  An output block is written back once, at its run's last point (K coordinate 7). What is written there
  (`RunningSum.last_step_apply`) is, element by element, the blocked arrangement `Cert.TiledLinear.tiled` of the
  activations, the weights and the bias read at the element's place in the 8192 × 4096 array — row
  `2048 · (row tile) + r`, column `1024 · (column tile) + s` (`written_back`). Every place of the array lies in the
  block of exactly such a point: row tile `n / 2048`, column tile `o / 1024` (`every_place_written`). So the array
  ends holding `tiled` everywhere (`output_array`).
-/
import proofs.«149169_j33483565039896_2_alg».proof.Proof.RunningSum

noncomputable section

open scoped BigOperators
open Idealize.ShloMosaic Idealize.ShloMosaic.TcCoe Idealize.SL.Sem Idealize.ShloMosaic.ValueIdx
open Idealize.ShloMosaic.Pipeline (Dat)

namespace Cert.KernelIdeal.OutputArray

open Cert.KernelIdeal Cert.KernelIdeal.Gen Cert.TiledLinear
open Cert.KernelIdeal.BlockReads Cert.KernelIdeal.RunningSum

variable (m : (ℓ : Loc nD τ sig) → Buf (Elt Ideal) ℓ)

/-- The bias by column: entry `(0, o)` of the bias row the region found. -/
abbrev biasAt (c : Dev nD) : Nat → EReal := fun o => ent (biasRow m c) 0 o

/-- What the output array ends holding: the blocked arrangement of the arrays the region found. -/
abbrev target (c : Dev nD) : S8192x4096.Idx → EReal := tiled (acts m c) (weights m c) (biasAt m c)

/-- WHAT A FLUSHING POINT WRITES BACK is its block of `target`. -/
theorem written_back (c : Dev nD) (t : Fin cfg0.N) (hf : (cfg0.win 3).flush t = true) :
    (dats m 0 c).flushed 3 t = ((cfg0.win 3).blk t).view.read (Elt Ideal) (target m c) := by
  have h7 : t.val % 8 = 7 := (flush0_3 t).mp hf
  have hN := point_lt t
  obtain ⟨-, -, -, -, -, -, e0, e1⟩ := block_indices t
  show (cfg0.win 3).cut (grid0.coords t) ((dats m 0 c).after 3 t) = _
  rw [after0_3]
  refine funext fun (y : S2048x1024.Idx) => ?_
  rw [View.read_apply]
  show outsAt0 m c t.val t.isLt y = target m c (((cfg0.win 3).blk t).view.emb y)
  rw [last_step_apply m c t h7 y]
  have r0 : ((((cfg0.win 3).blk t).view.emb y) 0).val = 2048 * (t.val / 32) + (y 0).val := by
    show win0_3.index t (0 : Fin 2) * 2048 + 1 * (y 0).val = _
    omega
  have r1 : ((((cfg0.win 3).blk t).view.emb y) 1).val = 1024 * (t.val / 8 % 4) + (y 1).val := by
    show win0_3.index t (1 : Fin 2) * 1024 + 1 * (y 1).val = _
    omega
  show _ = biasAt m c ((((cfg0.win 3).blk t).view.emb y) 1).val
    + ∑ κ ∈ Finset.range 8, blockDot (acts m c) (weights m c) ((((cfg0.win 3).blk t).view.emb y) 0).val
        ((((cfg0.win 3).blk t).view.emb y) 1).val κ
  rw [r0, r1]

/-- A place of the array is in point `t`'s output block iff each coordinate is in the block's range on its axis. -/
theorem mem_out_block (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_call0_v2).slice (win0_3.rect t)).set ↔ _
  rw [View.set_slice_whole, Rect.mem_set_unit]
  exact Iff.rfl

/-- EVERY PLACE IS WRITTEN: place `(n, o)` lies in the block flushed at the last point of the run of row tile
    `n / 2048`, column tile `o / 1024`. -/
theorem every_place_written (i : S8192x4096.Idx) :
    ∃ t : Fin cfg0.N, (cfg0.win 3).flush t = true ∧ i ∈ ((cfg0.win 3).blk t).view.set := by
  have h0 : (i 0).val < 8192 := idx2_lt0 i
  have h1 : (i 1).val < 4096 := idx2_lt1 i
  have hN : cfg0.N = 128 := N_0
  have hlt : ((i 0).val / 2048 * 4 + (i 1).val / 1024) * 8 + 7 < cfg0.N := by rw [hN]; omega
  obtain ⟨-, -, -, -, -, -, e0, e1⟩ := block_indices ⟨((i 0).val / 2048 * 4 + (i 1).val / 1024) * 8 + 7, hlt⟩
  have e0' : win0_3.index ⟨((i 0).val / 2048 * 4 + (i 1).val / 1024) * 8 + 7, hlt⟩ (0 : Fin 2) = (i 0).val / 2048 := by
    rw [e0]; show (((i 0).val / 2048 * 4 + (i 1).val / 1024) * 8 + 7) / 32 = _; omega
  have e1' : win0_3.index ⟨((i 0).val / 2048 * 4 + (i 1).val / 1024) * 8 + 7, hlt⟩ (1 : Fin 2) = (i 1).val / 1024 := by
    rw [e1]; show (((i 0).val / 2048 * 4 + (i 1).val / 1024) * 8 + 7) / 8 % 4 = _; omega
  refine ⟨⟨((i 0).val / 2048 * 4 + (i 1).val / 1024) * 8 + 7, hlt⟩, (flush0_3 _).mpr ?_, ?_⟩
  · show (((i 0).val / 2048 * 4 + (i 1).val / 1024) * 8 + 7) % 8 = 7
    omega
  · rw [mem_out_block]
    intro a
    match a with
    | ⟨0, _⟩ =>
      show win0_3.index _ (0 : Fin 2) * 2048 ≤ (i 0).val ∧ (i 0).val < win0_3.index _ (0 : Fin 2) * 2048 + 2048
      rw [e0']; omega
    | ⟨1, _⟩ =>
      show win0_3.index _ (1 : Fin 2) * 1024 ≤ (i 1).val ∧ (i 1).val < win0_3.index _ (1 : Fin 2) * 1024 + 1024
      rw [e1']; omega

/-- THE OUTPUT ARRAY after the region holds `target`. -/
theorem output_array (c : Dev nD) : (dats m 0 c).arrAt 3 cfg0.N = target m c :=
  (dats m 0 c).arrAt_eq_of_cover 3 (target m c) (fun t hf => written_back m c t hf) every_place_written

end Cert.KernelIdeal.OutputArray

end
-- ==== Proof.HostBefore.lean ====
/-
  What the region finds in the arrays it stages: the host lines before it.

  Two reshapes run before the region. The activations `x` (4 × 2048 × 4096) are re-laid as 8192 rows of 4096, and
  the bias (4096 entries) as one row of 4096; the weights are staged as they were launched. A one-row re-laying
  keeps the entry order, so the bias row's entry `(0, o)` is the bias vector's entry `o`.
-/
import proofs.«149169_j33483565039896_2_alg».proof.Proof.BlockReads
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.HostBefore

open Cert.KernelIdeal Cert.KernelIdeal.Gen Cert.TiledLinear Cert.KernelIdeal.BlockReads

variable (m : (ℓ : Loc nD τ sig) → Buf (Elt Ideal) ℓ)

/-- The activations the region finds: the argument re-laid as 8192 rows. -/
theorem acts_eq (c : Dev nD) :
    acts m c = shapeCast S8192x4096 (m ((c : Thread nD τ).loc main_arg0)) shapeCasts_S4x2048x4096_S8192x4096 := by
  show StableHlo.after hostOps0 (fun b => m (c, b)) (Proc.devRef .tc main_call0_v0) = _
  after_results
  rfl

/-- The weights the region finds: the argument. -/
theorem weights_eq (c : Dev nD) : weights m c = m ((c : Thread nD τ).loc main_arg1) := V_main_arg1 m c

/-- The bias row the region finds: the argument re-laid as one row. -/
theorem biasRow_eq (c : Dev nD) :
    biasRow m c = shapeCast S1x4096 (m ((c : Thread nD τ).loc main_arg2)) shapeCasts_S4096_S1x4096 := by
  show StableHlo.after hostOps0 (fun b => m (c, b)) (Proc.devRef .tc main_call0_v1) = _
  after_results
  rfl

/-- Entry `(0, o)` of that row is entry `o` of the bias vector (both zero past the extent). -/
theorem biasRow_ent (c : Dev nD) (o : Nat) :
    ent (biasRow m c) 0 o = ent1 (m ((c : Thread nD τ).loc main_arg2) : S4096.Idx → EReal) o := by
  by_cases h : o < 4096
  · rw [ent_of_lt _ Nat.one_pos h, ent1_of_lt _ h, biasRow_eq]
    exact shapeCast_apply _ shapeCasts_S4096_S1x4096 (ix2 (⟨0, Nat.one_pos⟩ : Fin 1) (⟨o, h⟩ : Fin 4096)) (ix1 (⟨o, h⟩ : Fin 4096))
      (by rw [Shape.rowMajor_val_one, Shape.rowMajor_val_two]; show o = 0 * 4096 + o; omega)
  · unfold ent ent1
    rw [dif_neg (fun hh => h hh.2), dif_neg h]

end Cert.KernelIdeal.HostBefore

end
-- ==== Proof.WholeRun.lean ====
/-
  The idealized kernel's run, read: its result as one function of its arguments.

  After the region one host line re-lays the 8192 × 4096 output array as the 4 × 2048 × 4096 result. The output
  array holds the blocked arrangement of the arrays the region found (`OutputArray.output_array`), and those are the
  re-laid activations, the weights, and the bias by column (`HostBefore`). So every weakly fair execution ends with
  the result buffer at `linear x W b` below — the blocked arrangement of the re-laid `x`, `W` and `b`, re-laid —
  and the three arguments as they were.
-/
import proofs.«149169_j33483565039896_2_alg».proof.Proof.OutputArray
import proofs.«149169_j33483565039896_2_alg».proof.Proof.HostBefore
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.WholeRun

open Cert.KernelIdeal Cert.KernelIdeal.Gen Cert.TiledLinear
open Cert.KernelIdeal.BlockReads Cert.KernelIdeal.OutputArray Cert.KernelIdeal.HostBefore

variable (m : (ℓ : Loc nD τ sig) → Buf (Elt Ideal) ℓ) (ρ : Dev nD → PrngReg)

/-- The result as a function of the three arguments: `x` re-laid as 8192 rows, the blocked arrangement with `W`
    and the bias by column, re-laid as 4 × 2048 × 4096. -/
def linear (x : S4x2048x4096.Idx → EReal) (w : S4096x4096.Idx → EReal) (b : S4096.Idx → EReal) : S4x2048x4096.Idx → EReal :=
  shapeCast S4x2048x4096
    (tiled (shapeCast S8192x4096 x shapeCasts_S4x2048x4096_S8192x4096) w (fun o => ent1 b o))
    shapeCasts_S8192x4096_S4x2048x4096

/-- What the output array ends holding, in the arguments. -/
theorem target_eq (c : Dev nD) :
    target m c = tiled (shapeCast S8192x4096 (m ((c : Thread nD τ).loc main_arg0)) shapeCasts_S4x2048x4096_S8192x4096)
      (m ((c : Thread nD τ).loc main_arg1)) (fun o => ent1 (m ((c : Thread nD τ).loc main_arg2) : S4096.Idx → EReal) o) := by
  show tiled (acts m c) (weights m c) (biasAt m c) = _
  rw [acts_eq, weights_eq, show biasAt m c = fun o => ent1 (m ((c : Thread nD τ).loc main_arg2) : S4096.Idx → EReal) o
    from funext fun o => biasRow_ent m c o]

/-- The result buffer after the line that follows the region. -/
theorem result_eq (c : Dev nD) :
    Pipeline.afterTail₀ cfgs (dats m) 0 (V0 m) [hostOps1] c main_v0
      = linear (m ((c : Thread nD τ).loc main_arg0)) (m ((c : Thread nD τ).loc main_arg1)) (m ((c : Thread nD τ).loc main_arg2)) := by
  unfold Pipeline.afterTail₀
  show StableHlo.after hostOps1 _ (Proc.devRef .tc main_v0) = _
  after_results
  unfold linear
  rw [← target_eq m c, ← output_array m c]
  exact congrArg (fun a => shapeCast S4x2048x4096 a shapeCasts_S8192x4096_S4x2048x4096)
    (Pipeline.withArrays_arr spec0 launch0.win.arr_inj c _ _ 3)

/-- THE RUN, READ: the result buffer at `linear` of the arguments, the arguments unchanged. -/
theorem run : θ_run defs (onTc (τ := τ) (main (F := Ideal))) ⟨m, fun _ => 0, ρ⟩ fun r => ∀ c : Dev nD,
      r.2.mem ((c.tc : Thread nD τ).loc main_v0)
        = linear (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.WholeRun

end
-- ==== Proof.ReferenceWhole.lean ====
/-
  The reference, read at an element: the whole arrangement.

  The reference re-lays `x` as 8192 rows, contracts each row against each row of `W` over all 4096 columns, adds
  the bias broadcast down the rows, and re-lays the result as 4 × 2048 × 4096. Before that last re-laying its value
  at `(n, o)` is `(∑ k < 4096, X (n, k) · W (o, k)) + b o`: `Cert.TiledLinear.whole` of the re-laid `x`, `W` and the
  bias by column. (The generated read-at-an-index lemmas give each stage at an index; written here is that their
  composition is that one function.)
-/
import proofs.«149169_j33483565039896_2_alg».proof.Proof.TiledSum
import proofs.«149169_j33483565039896_2_alg».proof.Proof.Gen.ReferenceIdeal.Read

noncomputable section

open scoped BigOperators
open Idealize.ShloMosaic Idealize.ShloMosaic.ValueIdx

namespace Cert.ReferenceIdeal.RefValue

open Cert.ReferenceIdeal Cert.ReferenceIdeal.Read Cert.TiledLinear

/-- The sum stage (product plus broadcast bias) is the whole arrangement of the re-laid `x`, `W` and the bias. -/
theorem sum_stage_eq_whole (x0 : (⟨S4x2048x4096, .f32⟩ : BufTy).Contents (Elt Ideal))
    (x1 : (⟨S4096x4096, .f32⟩ : BufTy).Contents (Elt Ideal)) (x2 : (⟨S4096, .f32⟩ : BufTy).Contents (Elt Ideal)) :
    val_main_v4 (F := Ideal) x0 x1 x2
      = whole (val_main_v0 (F := Ideal) x0 : S8192x4096.Idx → EReal) (x1 : S4096x4096.Idx → EReal)
          (fun o => ent1 (x2 : S4096.Idx → EReal) o) := by
  funext i
  rw [val_main_v4_apply, val_main_v1_apply, val_main_v3_apply, val_main_v2_apply]
  unfold whole
  have hb : x2 (idx_main_v2 (idx_main_v3 i)) = ent1 (x2 : S4096.Idx → EReal) (i 1).val := by
    rw [ent1_of_lt _ (idx2_lt1 i)]
    exact congrArg x2 (funext fun a => match a with | ⟨0, _⟩ => rfl)
  rw [hb, Finset.sum_range (fun k => ent (val_main_v0 (F := Ideal) x0 : S8192x4096.Idx → EReal) (i 0).val k
    * ent (x1 : S4096x4096.Idx → EReal) (i 1).val k)]
  refine congrArg (· + ent1 (x2 : S4096.Idx → EReal) (i 1).val) (Finset.sum_congr rfl fun k _ => ?_)
  rw [ent_of_lt _ (idx2_lt0 i) k.isLt, ent_of_lt _ (idx2_lt1 i) k.isLt]
  have el : lidx_main_v1 i k = ix2 (⟨(i 0).val, idx2_lt0 i⟩ : Fin 8192) (⟨k.val, k.isLt⟩ : Fin 4096) :=
    funext fun a => match a with | ⟨0, _⟩ => rfl | ⟨1, _⟩ => rfl
  have er : ridx_main_v1 i k = ix2 (⟨(i 1).val, idx2_lt1 i⟩ : Fin 4096) (⟨k.val, k.isLt⟩ : Fin 4096) :=
    funext fun a => match a with | ⟨0, _⟩ => rfl | ⟨1, _⟩ => rfl
  rw [el, er]

end Cert.ReferenceIdeal.RefValue

end
-- ==== Proof.lean ====
/-
  A linear layer `out = x · Wᵀ + bias` computed in tiles, against the same layer computed whole.

  THE KERNEL re-lays `x` (4 × 2048 × 4096) as 8192 rows and walks a 4 × 4 × 8 grid: 4 row tiles of 2048 rows, 4 column
  tiles of 1024 columns, and, innermost, 8 steps of 512 along the 4096-long contraction. An output block stays in
  place over its 8 steps: the first stores the bias row broadcast down the block's rows and adds the step's partial
  product, each later one adds its partial product to what is there; the block is written back after the eighth.
  The operands are rounded to a narrower format on the way into each product and the sums are kept in the wider one.
  THE REFERENCE contracts all 4096 columns at once, adds the bias, and re-lays the result.

  On the extended reals a change of format is the identity and every operation is exact, so entry `(n, o)` is
      kernel:     b o + ∑ κ < 8, ∑ q < 512, X (n, 512 κ + q) · W (o, 512 κ + q)
      reference:  (∑ k < 4096, X (n, k) · W (o, k)) + b o
  — the same products, summed in blocks or at once, the bias first or last. Addition on the extended reals is
  commutative and associative at the infinities too, so the two are equal for ALL inputs
  (`Cert.TiledLinear.tiled_eq_whole`); finiteness of the inputs is never used.

  The modules: `TiledSum` (the two arrangements and the law between them, no program in sight); `CaseValues`,
  `PayloadAt`, `BlockReads`, `RunningSum`, `OutputArray`, `HostBefore`, `WholeRun` (the idealized kernel's run ends
  with its result at the blocked arrangement of its arguments); `ReferenceWhole` (the reference's at the whole one);
  here, the five claims. The ideal pass rewrote nothing, so `preserves` asks nothing.
-/
import proofs.«149169_j33483565039896_2_alg».proof.Defs
import proofs.«149169_j33483565039896_2_alg».proof.Proof.Gen.Kernel
import proofs.«149169_j33483565039896_2_alg».proof.Proof.Gen.Kernel.Skeleton
import proofs.«149169_j33483565039896_2_alg».proof.Proof.Gen.Kernel.Launch
import proofs.«149169_j33483565039896_2_alg».proof.Proof.Gen.Kernel.Points
import proofs.«149169_j33483565039896_2_alg».proof.Proof.Gen.Kernel.Frame
import proofs.«149169_j33483565039896_2_alg».proof.Proof.Gen.KernelIdeal
import proofs.«149169_j33483565039896_2_alg».proof.Proof.Gen.KernelIdeal.Skeleton
import proofs.«149169_j33483565039896_2_alg».proof.Proof.Gen.KernelIdeal.Launch
import proofs.«149169_j33483565039896_2_alg».proof.Proof.Gen.KernelIdeal.Points
import proofs.«149169_j33483565039896_2_alg».proof.Proof.Gen.KernelIdeal.Frame
import proofs.«149169_j33483565039896_2_alg».proof.Proof.Gen.ReferenceIdeal
import proofs.«149169_j33483565039896_2_alg».proof.Proof.Gen.ReferenceIdeal.Run
import proofs.«149169_j33483565039896_2_alg».proof.Proof.Gen.ReferenceIdeal.Read
import proofs.«149169_j33483565039896_2_alg».proof.Proof.Gen.Pre_finite_inputs
import proofs.«149169_j33483565039896_2_alg».proof.Proof.WholeRun
import proofs.«149169_j33483565039896_2_alg».proof.Proof.ReferenceWhole
import Idealize.ShloMosaic.Adequacy
import Idealize.ShloMosaic.Init

noncomputable section

namespace Cert.Proof

open Idealize.ShloMosaic Idealize.SL.Sem

/-- The kernel as printed runs, faults nowhere, and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's result term is the kernel's function of the same arguments: its sum stage is the whole
    arrangement, the whole arrangement is the blocked one, and both re-lay `x` before and the result after alike. -/
theorem reference_eq_linear (x0 : (⟨Cert.ReferenceIdeal.S4x2048x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal)) :
    Cert.ReferenceIdeal.Read.val_main_v5 (F := Ideal) x0 x1 x2 = Cert.KernelIdeal.WholeRun.linear x0 x1 x2 := by
  unfold Cert.ReferenceIdeal.Read.val_main_v5 Cert.KernelIdeal.WholeRun.linear
  rw [Cert.ReferenceIdeal.RefValue.sum_stage_eq_whole, ← Cert.TiledLinear.tiled_eq_whole]
  rfl

/-- On the extended reals, from memories that agree on the arguments, both programs run and end with equal results:
    the kernel's at the blocked arrangement of its arguments, the reference's at the whole one. -/
theorem algebraic : Cert.algebraic_KernelIdeal_ReferenceIdeal := by
  intro m ρ m' ρ' _ hagree
  refine ⟨fun c => Cert.KernelIdeal.WholeRun.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.WholeRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v5_eq]
  exact reference_eq_linear _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
